-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x1 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 55
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x64, .f32⟩
  | .hbm, ⟨54, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is three TensorCore regions, each entered after a stretch of host operations. Its buffers' contents at
  each boundary are a fold from the launch memory: a stretch applies its operations to the contents before it, a
  region replaces its five arrays by what its pipeline leaves. Every weakly fair execution terminates, nothing
  faulting, in a state whose unscoped buffers hold the last boundary's contents; read there, the result buffer holds
  the last region's output array and each argument holds what it was launched with.
-/
import proofs.«168601_j18141941859039_1_alg».proof.Proof.Gen.KernelIdeal.Frame

set_option maxRecDepth 16384

noncomputable section

namespace Cert.KernelIdeal.Staged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and
    the ten arguments as launched. -/
theorem run : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Staged

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.NodeUpdate.lean ====
/-
  One dense node update of a graph-convolution layer, at exact arithmetic.

  Given the aggregated features a (R rows, K columns), the per-node scale s (an R×1 column), the weights W (K×D) and
  the bias as a 1×D row b, the update is
      out[r, q] = Σ_k (a[r, k] · s[r, 0]) · W[k, q] + b[0, q],
  optionally followed by max(·, 0). Every product and sum is taken on the extended reals exactly as written: no factor
  is moved across the sum, so no finiteness of the entries is needed anywhere below.

  Two programs compute it. A TensorCore body scales its block of a by the broadcast column, multiplies by W into a zero
  accumulator (the narrowing to bf16 before the product is the identity at exact arithmetic) and adds the broadcast
  row. The host computes it with a broadcast_in_dim of the column, a multiply, a dot_general, and the bias vector
  broadcast first to a row and then down the rows. Both are shown equal to the one function above, for any extents.
-/
import Idealize.ShloMosaic.Lib.ValueIdx
import Idealize.ShloMosaic.Lib.Pipeline.Value
import Idealize.ShloMosaic.PureOps.Ideal.Laws
import proofs.«168601_j18141941859039_1_alg».proof.Proof.LibMatmulIdx
import proofs.«168601_j18141941859039_1_alg».proof.Proof.LibMatIdx
import proofs.«168601_j18141941859039_1_alg».proof.Proof.LibRowOps

noncomputable section

namespace NodeUpdate

open Idealize.ShloMosaic Idealize.ShloMosaic.ValueIdx

variable {R K D : ℕ}

/-- The affine update: out[r, q] = Σ_k (a[r, k] · s[r, 0]) · W[k, q] + b[0, q]. -/
def affine (a : FVec Ideal ⟨2, ![R, K]⟩ .f32) (s : FVec Ideal ⟨2, ![R, 1]⟩ .f32) (W : FVec Ideal ⟨2, ![K, D]⟩ .f32)
    (b : FVec Ideal ⟨2, ![1, D]⟩ .f32) : FVec Ideal ⟨2, ![R, D]⟩ .f32 := fun j =>
  (∑ k : Fin K, (a (ix2 (n0 := R) (n1 := K) (j 0) k) * s (ix2 (n0 := R) (n1 := 1) (j 0) 0)) * W (ix2 (n0 := K) (n1 := D) k (j 1)))
    + b (ix2 (n0 := 1) (n1 := D) 0 (j 1))

/-- The affine update followed by the maximum with the float zero. -/
def rectified (a : FVec Ideal ⟨2, ![R, K]⟩ .f32) (s : FVec Ideal ⟨2, ![R, 1]⟩ .f32) (W : FVec Ideal ⟨2, ![K, D]⟩ .f32)
    (b : FVec Ideal ⟨2, ![1, D]⟩ .f32) : FVec Ideal ⟨2, ![R, D]⟩ .f32 := fun j =>
  max (affine a s W b j) (Ideal.ofBits .f32 0x00000000#32)

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The same column spread by a host broadcast_in_dim along both axes: at (p, q), the column at p. -/
theorem broadcastInDim_col_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A length-b vector made a row by broadcast_in_dim and then spread down a rows: at (p, q), the vector at q. -/
theorem broadcastInDim_vec_rows_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) := by
  have e2 : broadcastInDim ⟨2, ![a, b]⟩ ![0, 1] h2 (broadcastInDim ⟨2, ![1, b]⟩ ![1] h1 x) (ix2 p q)
      = broadcastInDim ⟨2, ![1, b]⟩ ![1] h1 x (ix2 (0 : Fin 1) q) := by
    refine broadcastInDim_apply _ h2 _ (ix2 p q) (ix2 (0 : Fin 1) q) fun ax => ?_
    match ax with
    | ⟨0, _⟩ =>
      show 0 = if (1 : ℕ) = 1 then 0 else p.val
      rw [if_pos rfl]
    | ⟨1, _⟩ =>
      show q.val = if b = 1 then 0 else q.val
      split
      · have := q.isLt; omega
      · rfl
  rw [e2]
  refine broadcastInDim_apply _ h1 x (ix2 (0 : Fin 1) q) (ix1 q) fun ax => ?_
  match ax with
  | ⟨0, _⟩ =>
    show q.val = if b = 1 then 0 else q.val
    split
    · have := q.isLt; omega
    · rfl

section Contraction

variable (Dd : DotDims ⟨2, ![R, K]⟩ ⟨2, ![K, D]⟩ ⟨2, ![R, D]⟩)
  (hr : Dd.contr.rank = 1) (hs : Dd.contr.size ⟨0, by omega⟩ = K)
  (hl0 : ∀ j k, (Dd.lhsIdx j k 0).val = (j 0).val) (hl1 : ∀ j k, (Dd.lhsIdx j k 1).val = (k ⟨0, by omega⟩).val)
  (hr0 : ∀ j k, (Dd.rhsIdx j k 0).val = (k ⟨0, by omega⟩).val) (hr1 : ∀ j k, (Dd.rhsIdx j k 1).val = (j 1).val)

include hr hs hl0 hl1 hr0 hr1

/-- A TensorCore body's arithmetic on its blocks — the block of a scaled by the broadcast column, narrowed (the
    identity here), multiplied by the narrowed weights into the zero splat, plus the broadcast bias row — is the affine
    update of the blocks. -/
theorem body_affine (x0 : FVec Ideal ⟨2, ![R, K]⟩ .f32) (x1 : FVec Ideal ⟨2, ![R, 1]⟩ .f32)
    (x2 : FVec Ideal ⟨2, ![K, D]⟩ .f32) (x3 : FVec Ideal ⟨2, ![1, D]⟩ .f32)
    (c0 : (⟨2, ![R, K]⟩ : Shape).ShapeCasts ⟨2, ![R, K]⟩) (b1 : (⟨2, ![R, 1]⟩ : Shape).Broadcasts ⟨2, ![R, K]⟩)
    (hb : FTy.bf16.bits < FTy.f32.bits)
    (c3 : (⟨2, ![1, D]⟩ : Shape).ShapeCasts ⟨2, ![1, D]⟩) (b3 : (⟨2, ![1, D]⟩ : Shape).Broadcasts ⟨2, ![R, D]⟩) :
    addf (matmul Dd none (truncf .bf16 (mulf (shapeCast ⟨2, ![R, K]⟩ x0 c0) (broadcastTo ⟨2, ![R, K]⟩ x1 b1)) hb)
        (truncf .bf16 x2 hb) (constant ⟨2, ![R, D]⟩ .f32 0x00000000#32))
      (broadcastTo ⟨2, ![R, D]⟩ (shapeCast ⟨2, ![1, D]⟩ x3 c3) b3) = affine x0 x1 x2 x3 := by
  funext j
  obtain ⟨p, q, rfl⟩ : ∃ (p : Fin R) (q : Fin D), j = ix2 p q := ⟨j 0, j 1, eq_ix2 j⟩
  rw [addf_apply]
  unfold affine
  refine congrArg₂ (· + ·) ?_ ?_
  · refine (LibMatmulIdx.matmul2_apply Dd hr hs hl0 hl1 hr0 hr1 none _ _ (ix2 p q)).trans ?_
    refine Finset.sum_congr rfl fun k _ => ?_
    show (shapeCast ⟨2, ![R, K]⟩ x0 c0 (ix2 p k) * broadcastTo ⟨2, ![R, K]⟩ x1 b1 (ix2 p k)) * x2 (ix2 k q) = _
    rw [shapeCast_self, broadcastTo_col_apply]
    rfl
  · refine (LibRowOps.broadcastTo_row_apply _ b3 p q).trans ?_
    rw [shapeCast_self]
    rfl

/-- The host's arithmetic on whole arrays — a multiplied by the column spread along the rows, a dot_general with the
    weights, plus the bias vector spread to every row — is the affine update with the bias vector cast to a row. -/
theorem host_affine (a : FVec Ideal ⟨2, ![R, K]⟩ .f32) (s : FVec Ideal ⟨2, ![R, 1]⟩ .f32)
    (W : FVec Ideal ⟨2, ![K, D]⟩ .f32) (b : FVec Ideal ⟨1, ![D]⟩ .f32)
    (hcol : (⟨2, ![R, 1]⟩ : Shape).BroadcastsInDim ⟨2, ![R, K]⟩ ![0, 1])
    (h1 : (⟨1, ![D]⟩ : Shape).BroadcastsInDim ⟨2, ![1, D]⟩ ![1])
    (h2 : (⟨2, ![1, D]⟩ : Shape).BroadcastsInDim ⟨2, ![R, D]⟩ ![0, 1])
    (hc : (⟨1, ![D]⟩ : Shape).ShapeCasts ⟨2, ![1, D]⟩) :
    addf (Host.dotGeneral Dd none (mulf a (broadcastInDim ⟨2, ![R, K]⟩ ![0, 1] hcol s)) W)
      (broadcastInDim ⟨2, ![R, D]⟩ ![0, 1] h2 (broadcastInDim ⟨2, ![1, D]⟩ ![1] h1 b))
      = affine a s W (shapeCast ⟨2, ![1, D]⟩ b hc) := by
  funext j
  obtain ⟨p, q, rfl⟩ : ∃ (p : Fin R) (q : Fin D), j = ix2 p q := ⟨j 0, j 1, eq_ix2 j⟩
  rw [addf_apply]
  unfold affine
  refine congrArg₂ (· + ·) ?_ ?_
  · refine (LibMatIdx.dot2_apply Dd hr hs hl0 hl1 hr0 hr1 none _ _ (ix2 p q)).trans ?_
    refine Finset.sum_congr rfl fun k _ => ?_
    show (a (ix2 p k) * broadcastInDim ⟨2, ![R, K]⟩ ![0, 1] hcol s (ix2 p k)) * W (ix2 k q) = _
    rw [broadcastInDim_col_apply]
    rfl
  · refine (broadcastInDim_vec_rows_apply b h1 h2 p q).trans ?_
    exact (LibRowOps.shapeCast_row_apply b hc (0 : Fin 1) q).symm

end Contraction

end NodeUpdate

end
-- ==== Proof.Layer0.lean ====
/-
  Region 0: what the first node update leaves in its output array.

  The grid has 20 points; point t stages rows 5000·t … 5000·t + 4999 of the aggregated features and of the scale
  column, the whole weight matrix and the whole bias row, and writes back the same rows of the output. Row r of the
  update depends on row r of the features, entry r of the column, and all of the weights and bias — so the block a
  point writes is the restriction to its rows of ONE function of the whole arrays, the rectified affine update, and
  since the 20 row ranges cover the 100000 rows the output array ends holding that function everywhere.
-/
import proofs.«168601_j18141941859039_1_alg».proof.Proof.Gen.KernelIdeal.Frame
import proofs.«168601_j18141941859039_1_alg».proof.Proof.NodeUpdate
import Idealize.ShloMosaic.Lib.Pipeline.Value
import Idealize.ShloMosaic.Lib.ValueIdx

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The body's arithmetic on its four loaded blocks is the rectified affine update of those blocks. -/
theorem body_eq (x0 : Vec Ideal S5000x128 .f32) (x1 : Vec Ideal S5000x1 .f32) (x2 : Vec Ideal S128x128 .f32)
    (x3 : Vec Ideal S1x128 .f32) : k0_pay1 (F := Ideal) x0 x1 x2 x3 = NodeUpdate.rectified x0 x1 x2 x3 := by
  funext j
  exact congrArg (fun f : FVec Ideal S5000x128 .f32 => max (f j) (Ideal.ofBits .f32 0x00000000#32))
    (NodeUpdate.body_affine dot_S5000x128_S128x128_S5000x128_1_0_0_1_n_n rfl rfl (fun _ _ => rfl) (fun _ _ => rfl)
      (fun _ _ => rfl) (fun _ _ => rfl) x0 x1 x2 x3 _ _ _ _ _)

/-- The printed index maps over the grid: the feature, column and output blocks of point t are block t along the
    rows; the weights and the bias row are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the rectified affine update of the arrays as the region finds them. -/
theorem flushed_eq (c : Dev nD) (t : Fin cfg0.N) :
    (dat0 V c).flushed 4 t = ((cfg0.win 4).blk t).view.read (Elt Ideal)
      (NodeUpdate.rectified (V c main_v9) (V c main_arg1) (V c main_arg2) (V c main_v10)) := by
  show (cfg0.win 4).cut (grid0.coords t) ((dat0 V c).after 4 t) = _
  rw [after0_4]
  unfold out0_4
  rw [View.canon_unit_zero zero_off]
  simp only [View.ld_unit_zero (S := S5000x128) zero_off, View.ld_unit_zero (S := S5000x1) zero_off,
    View.ld_unit_zero (S := S128x128) zero_off, View.ld_unit_zero (S := S1x128) zero_off]
  rw [body_eq]
  obtain ⟨e00, e01, e10, e11, e20, e21, e30, e31, e40, e41⟩ := idx_facts t
  funext y
  show NodeUpdate.rectified (fun i => V c main_v9 (((cfg0.win 0).blk t).view.emb i))
      (fun i => V c main_arg1 (((cfg0.win 1).blk t).view.emb i))
      (fun i => V c main_arg2 (((cfg0.win 2).blk t).view.emb i))
      (fun i => V c main_v10 (((cfg0.win 3).blk t).view.emb i)) y
    = NodeUpdate.rectified (V c main_v9) (V c main_arg1) (V c main_arg2) (V c main_v10) (((cfg0.win 4).blk t).view.emb y)
  unfold NodeUpdate.rectified NodeUpdate.affine
  have hA : ∀ k : Fin 128, ((cfg0.win 0).blk t).view.emb (ix2 (n0 := 5000) (n1 := 128) (y 0) k)
      = ix2 (n0 := 100000) (n1 := 128) ((((cfg0.win 4).blk t).view.emb y) 0) k := fun k => by
    funext a; apply Fin.ext
    match a with
    | ⟨0, _⟩ => show win0_0.index t (0 : Fin 2) * 5000 + 1 * (y 0).val = win0_4.index t (0 : Fin 2) * 5000 + 1 * (y 0).val; omega
    | ⟨1, _⟩ => show win0_0.index t (1 : Fin 2) * 128 + 1 * k.val = k.val; omega
  have hs : ((cfg0.win 1).blk t).view.emb (ix2 (n0 := 5000) (n1 := 1) (y 0) 0)
      = ix2 (n0 := 100000) (n1 := 1) ((((cfg0.win 4).blk t).view.emb y) 0) 0 := by
    funext a; apply Fin.ext
    match a with
    | ⟨0, _⟩ => show win0_1.index t (0 : Fin 2) * 5000 + 1 * (y 0).val = win0_4.index t (0 : Fin 2) * 5000 + 1 * (y 0).val; omega
    | ⟨1, _⟩ => show win0_1.index t (1 : Fin 2) * 1 + 1 * 0 = 0; omega
  have hW : ∀ k : Fin 128, ((cfg0.win 2).blk t).view.emb (ix2 (n0 := 128) (n1 := 128) k (y 1))
      = ix2 (n0 := 128) (n1 := 128) k ((((cfg0.win 4).blk t).view.emb y) 1) := fun k => by
    funext a; apply Fin.ext
    match a with
    | ⟨0, _⟩ => show win0_2.index t (0 : Fin 2) * 128 + 1 * k.val = k.val; omega
    | ⟨1, _⟩ => show win0_2.index t (1 : Fin 2) * 128 + 1 * (y 1).val = win0_4.index t (1 : Fin 2) * 128 + 1 * (y 1).val; omega
  have hb : ((cfg0.win 3).blk t).view.emb (ix2 (n0 := 1) (n1 := 128) 0 (y 1))
      = ix2 (n0 := 1) (n1 := 128) 0 ((((cfg0.win 4).blk t).view.emb y) 1) := by
    funext a; apply Fin.ext
    match a with
    | ⟨0, _⟩ => show win0_3.index t (0 : Fin 2) * 1 + 1 * 0 = 0; omega
    | ⟨1, _⟩ => show win0_3.index t (1 : Fin 2) * 128 + 1 * (y 1).val = win0_4.index t (1 : Fin 2) * 128 + 1 * (y 1).val; omega
  simp only [hA, hs, hW, hb]

/-- An index of the output array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v11).slice (win0_4.rect t)).set ↔ _
  rw [View.set_slice_whole, Rect.mem_set_unit]
  exact Iff.rfl

/-- Row r lies in the block of point r / 5000: the 20 row ranges cover the array. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  refine ⟨⟨(i 0).val / 5000, ht⟩, flush0_4 _, ?_⟩
  rw [mem_blk]
  obtain ⟨-, -, -, -, -, -, -, -, e40, e41⟩ := idx_facts ⟨(i 0).val / 5000, ht⟩
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e41]
    omega

/-- The output array after the region: the rectified affine update of the arrays as the region finds them. -/
theorem final (c : Dev nD) : (dat0 V c).arrAt 4 cfg0.N
    = NodeUpdate.rectified (V c main_v9) (V c main_arg1) (V c main_arg2) (V c main_v10) :=
  (dat0 V c).arrAt_eq_of_cover 4 _ (fun t _ => flushed_eq V c t) covered

end Cert.KernelIdeal.Layer0

end
-- ==== Proof.Layer1.lean ====
/-
  Region 1: what the second node update leaves in its output array.

  The grid has 20 points; point t stages rows 5000·t … 5000·t + 4999 of the aggregated features and of the scale
  column, the whole weight matrix and the whole bias row, and writes back the same rows of the output. Row r of the
  update depends on row r of the features, entry r of the column, and all of the weights and bias — so the block a
  point writes is the restriction to its rows of ONE function of the whole arrays, the rectified affine update, and
  since the 20 row ranges cover the 100000 rows the output array ends holding that function everywhere.
-/
import proofs.«168601_j18141941859039_1_alg».proof.Proof.Gen.KernelIdeal.Frame
import proofs.«168601_j18141941859039_1_alg».proof.Proof.NodeUpdate
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The body's arithmetic on its four loaded blocks is the rectified affine update of those blocks. -/
theorem body_eq (x0 : Vec Ideal S5000x128 .f32) (x1 : Vec Ideal S5000x1 .f32) (x2 : Vec Ideal S128x128 .f32)
    (x3 : Vec Ideal S1x128 .f32) : k1_pay1 (F := Ideal) x0 x1 x2 x3 = NodeUpdate.rectified x0 x1 x2 x3 := by
  funext j
  exact congrArg (fun f : FVec Ideal S5000x128 .f32 => max (f j) (Ideal.ofBits .f32 0x00000000#32))
    (NodeUpdate.body_affine dot_S5000x128_S128x128_S5000x128_1_0_0_1_n_n rfl rfl (fun _ _ => rfl) (fun _ _ => rfl)
      (fun _ _ => rfl) (fun _ _ => rfl) x0 x1 x2 x3 _ _ _ _ _)

/-- The printed index maps over the grid: the feature, column and output blocks of point t are block t along the
    rows; the weights and the bias row are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the rectified affine update of the arrays as the region finds them. -/
theorem flushed_eq (c : Dev nD) (t : Fin cfg1.N) :
    (dat1 V c).flushed 4 t = ((cfg1.win 4).blk t).view.read (Elt Ideal)
      (NodeUpdate.rectified (V c main_v21) (V c main_arg1) (V c main_arg4) (V c main_v22)) := by
  show (cfg1.win 4).cut (grid1.coords t) ((dat1 V c).after 4 t) = _
  rw [after1_4]
  unfold out1_4
  rw [View.canon_unit_zero zero_off]
  simp only [View.ld_unit_zero (S := S5000x128) zero_off, View.ld_unit_zero (S := S5000x1) zero_off,
    View.ld_unit_zero (S := S128x128) zero_off, View.ld_unit_zero (S := S1x128) zero_off]
  rw [body_eq]
  obtain ⟨e00, e01, e10, e11, e20, e21, e30, e31, e40, e41⟩ := idx_facts t
  funext y
  show NodeUpdate.rectified (fun i => V c main_v21 (((cfg1.win 0).blk t).view.emb i))
      (fun i => V c main_arg1 (((cfg1.win 1).blk t).view.emb i))
      (fun i => V c main_arg4 (((cfg1.win 2).blk t).view.emb i))
      (fun i => V c main_v22 (((cfg1.win 3).blk t).view.emb i)) y
    = NodeUpdate.rectified (V c main_v21) (V c main_arg1) (V c main_arg4) (V c main_v22) (((cfg1.win 4).blk t).view.emb y)
  unfold NodeUpdate.rectified NodeUpdate.affine
  have hA : ∀ k : Fin 128, ((cfg1.win 0).blk t).view.emb (ix2 (n0 := 5000) (n1 := 128) (y 0) k)
      = ix2 (n0 := 100000) (n1 := 128) ((((cfg1.win 4).blk t).view.emb y) 0) k := fun k => by
    funext a; apply Fin.ext
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * k.val = k.val; omega
  have hs : ((cfg1.win 1).blk t).view.emb (ix2 (n0 := 5000) (n1 := 1) (y 0) 0)
      = ix2 (n0 := 100000) (n1 := 1) ((((cfg1.win 4).blk t).view.emb y) 0) 0 := by
    funext a; apply Fin.ext
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 1 + 1 * 0 = 0; omega
  have hW : ∀ k : Fin 128, ((cfg1.win 2).blk t).view.emb (ix2 (n0 := 128) (n1 := 128) k (y 1))
      = ix2 (n0 := 128) (n1 := 128) k ((((cfg1.win 4).blk t).view.emb y) 1) := fun k => by
    funext a; apply Fin.ext
    match a with
    | ⟨0, _⟩ => show win1_2.index t (0 : Fin 2) * 128 + 1 * k.val = k.val; omega
    | ⟨1, _⟩ => show win1_2.index t (1 : Fin 2) * 128 + 1 * (y 1).val = win1_4.index t (1 : Fin 2) * 128 + 1 * (y 1).val; omega
  have hb : ((cfg1.win 3).blk t).view.emb (ix2 (n0 := 1) (n1 := 128) 0 (y 1))
      = ix2 (n0 := 1) (n1 := 128) 0 ((((cfg1.win 4).blk t).view.emb y) 1) := by
    funext a; apply Fin.ext
    match a with
    | ⟨0, _⟩ => show win1_3.index t (0 : Fin 2) * 1 + 1 * 0 = 0; omega
    | ⟨1, _⟩ => show win1_3.index t (1 : Fin 2) * 128 + 1 * (y 1).val = win1_4.index t (1 : Fin 2) * 128 + 1 * (y 1).val; omega
  simp only [hA, hs, hW, hb]

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v23).slice (win1_4.rect t)).set ↔ _
  rw [View.set_slice_whole, Rect.mem_set_unit]
  exact Iff.rfl

/-- Row r lies in the block of point r / 5000: the 20 row ranges cover the array. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < cfg1.N := by
    show (i 0).val / 5000 < grid1.N
    rw [N_1]; omega
  refine ⟨⟨(i 0).val / 5000, ht⟩, flush1_4 _, ?_⟩
  rw [mem_blk]
  obtain ⟨-, -, -, -, -, -, -, -, e40, e41⟩ := idx_facts ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]
    omega

/-- The output array after the region: the rectified affine update of the arrays as the region finds them. -/
theorem final (c : Dev nD) : (dat1 V c).arrAt 4 cfg1.N
    = NodeUpdate.rectified (V c main_v21) (V c main_arg1) (V c main_arg4) (V c main_v22) :=
  (dat1 V c).arrAt_eq_of_cover 4 _ (fun t _ => flushed_eq V c t) covered

end Cert.KernelIdeal.Layer1

end
-- ==== Proof.Layer2.lean ====
/-
  Region 2: what the third node update leaves in its output array.

  The grid has 20 points; point t stages rows 5000·t … 5000·t + 4999 of the aggregated features and of the scale
  column, the whole weight matrix and the whole bias row, and writes back the same rows of the output. Row r of the
  update depends on row r of the features, entry r of the column, and all of the weights and bias — so the block a
  point writes is the restriction to its rows of ONE function of the whole arrays, the affine update (this layer takes no maximum), and
  since the 20 row ranges cover the 100000 rows the output array ends holding that function everywhere.
-/
import proofs.«168601_j18141941859039_1_alg».proof.Proof.Gen.KernelIdeal.Frame
import proofs.«168601_j18141941859039_1_alg».proof.Proof.NodeUpdate
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The body's arithmetic on its four loaded blocks is the affine update of those blocks. -/
theorem body_eq (x0 : Vec Ideal S5000x128 .f32) (x1 : Vec Ideal S5000x1 .f32) (x2 : Vec Ideal S128x64 .f32)
    (x3 : Vec Ideal S1x64 .f32) : k2_pay1 (F := Ideal) x0 x1 x2 x3 = NodeUpdate.affine x0 x1 x2 x3 :=
  NodeUpdate.body_affine dot_S5000x128_S128x64_S5000x64_1_0_0_1_n_n rfl rfl (fun _ _ => rfl) (fun _ _ => rfl)
    (fun _ _ => rfl) (fun _ _ => rfl) x0 x1 x2 x3 _ _ _ _ _

/-- The printed index maps over the grid: the feature, column and output blocks of point t are block t along the
    rows; the weights and the bias row are always block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the affine update of the arrays as the region finds them. -/
theorem flushed_eq (c : Dev nD) (t : Fin cfg2.N) :
    (dat2 V c).flushed 4 t = ((cfg2.win 4).blk t).view.read (Elt Ideal)
      (NodeUpdate.affine (V c main_v33) (V c main_arg1) (V c main_arg6) (V c main_v34)) := by
  show (cfg2.win 4).cut (grid2.coords t) ((dat2 V c).after 4 t) = _
  rw [after2_4]
  unfold out2_4
  rw [View.canon_unit_zero zero_off]
  simp only [View.ld_unit_zero (S := S5000x128) zero_off, View.ld_unit_zero (S := S5000x1) zero_off,
    View.ld_unit_zero (S := S128x64) zero_off, View.ld_unit_zero (S := S1x64) zero_off]
  rw [body_eq]
  obtain ⟨e00, e01, e10, e11, e20, e21, e30, e31, e40, e41⟩ := idx_facts t
  funext y
  show NodeUpdate.affine (fun i => V c main_v33 (((cfg2.win 0).blk t).view.emb i))
      (fun i => V c main_arg1 (((cfg2.win 1).blk t).view.emb i))
      (fun i => V c main_arg6 (((cfg2.win 2).blk t).view.emb i))
      (fun i => V c main_v34 (((cfg2.win 3).blk t).view.emb i)) y
    = NodeUpdate.affine (V c main_v33) (V c main_arg1) (V c main_arg6) (V c main_v34) (((cfg2.win 4).blk t).view.emb y)
  unfold NodeUpdate.affine
  have hA : ∀ k : Fin 128, ((cfg2.win 0).blk t).view.emb (ix2 (n0 := 5000) (n1 := 128) (y 0) k)
      = ix2 (n0 := 100000) (n1 := 128) ((((cfg2.win 4).blk t).view.emb y) 0) k := fun k => by
    funext a; apply Fin.ext
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * k.val = k.val; omega
  have hs : ((cfg2.win 1).blk t).view.emb (ix2 (n0 := 5000) (n1 := 1) (y 0) 0)
      = ix2 (n0 := 100000) (n1 := 1) ((((cfg2.win 4).blk t).view.emb y) 0) 0 := by
    funext a; apply Fin.ext
    match a with
    | ⟨0, _⟩ => show win2_1.index t (0 : Fin 2) * 5000 + 1 * (y 0).val = win2_4.index t (0 : Fin 2) * 5000 + 1 * (y 0).val; omega
    | ⟨1, _⟩ => show win2_1.index t (1 : Fin 2) * 1 + 1 * 0 = 0; omega
  have hW : ∀ k : Fin 128, ((cfg2.win 2).blk t).view.emb (ix2 (n0 := 128) (n1 := 64) k (y 1))
      = ix2 (n0 := 128) (n1 := 64) k ((((cfg2.win 4).blk t).view.emb y) 1) := fun k => by
    funext a; apply Fin.ext
    match a with
    | ⟨0, _⟩ => show win2_2.index t (0 : Fin 2) * 128 + 1 * k.val = k.val; omega
    | ⟨1, _⟩ => show win2_2.index t (1 : Fin 2) * 64 + 1 * (y 1).val = win2_4.index t (1 : Fin 2) * 64 + 1 * (y 1).val; omega
  have hb : ((cfg2.win 3).blk t).view.emb (ix2 (n0 := 1) (n1 := 64) 0 (y 1))
      = ix2 (n0 := 1) (n1 := 64) 0 ((((cfg2.win 4).blk t).view.emb y) 1) := by
    funext a; apply Fin.ext
    match a with
    | ⟨0, _⟩ => show win2_3.index t (0 : Fin 2) * 1 + 1 * 0 = 0; omega
    | ⟨1, _⟩ => show win2_3.index t (1 : Fin 2) * 64 + 1 * (y 1).val = win2_4.index t (1 : Fin 2) * 64 + 1 * (y 1).val; omega
  simp only [hA, hs, hW, hb]

/-- An index of the output array is in point t's block iff each coordinate is in the block's range on its axis. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v35).slice (win2_4.rect t)).set ↔ _
  rw [View.set_slice_whole, Rect.mem_set_unit]
  exact Iff.rfl

/-- Row r lies in the block of point r / 5000: the 20 row ranges cover the array. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 5000 < cfg2.N := by
    show (i 0).val / 5000 < grid2.N
    rw [N_2]; omega
  refine ⟨⟨(i 0).val / 5000, ht⟩, flush2_4 _, ?_⟩
  rw [mem_blk]
  obtain ⟨-, -, -, -, -, -, -, -, e40, e41⟩ := idx_facts ⟨(i 0).val / 5000, ht⟩
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, ht⟩ (1 : Fin 2) * 64 ≤ (i 1).val
      ∧ (i 1).val < win2_4.index ⟨(i 0).val / 5000, ht⟩ (1 : Fin 2) * 64 + 64
    rw [e41]
    omega

/-- The output array after the region: the affine update of the arrays as the region finds them. -/
theorem final (c : Dev nD) : (dat2 V c).arrAt 4 cfg2.N
    = NodeUpdate.affine (V c main_v33) (V c main_arg1) (V c main_arg6) (V c main_v34) :=
  (dat2 V c).arrAt_eq_of_cover 4 _ (fun t _ => flushed_eq V c t) covered

end Cert.KernelIdeal.Layer2

end
-- ==== Proof.GraphLayers.lean ====
/-
  The three-layer network both programs compute, as one function of the ten arguments.

  A layer first sums, into each destination node, the feature rows of the source nodes of its incoming edges: a
  gather of rows by the (wrapped) source indices followed by a scatter-add into zeros at the destination indices.
  Both programs spell this aggregation with the same host operations, so it is kept here as ONE definition that
  is never opened: whatever it computes, it is applied to equal operands on both sides. A layer then applies the
  dense node update; the first two layers rectify, the last does not.
-/
import Idealize.ShloMosaic.PureOps.Ideal
import proofs.«168601_j18141941859039_1_alg».proof.Proof.NodeUpdate

noncomputable section

namespace GraphLayers

open Idealize.ShloMosaic

abbrev Nodes : Shape := ⟨2, ![100000, 128]⟩
abbrev Edges : Shape := ⟨1, ![1600000]⟩
abbrev EdgeCol : Shape := ⟨2, ![1600000, 1]⟩
abbrev Msgs : Shape := ⟨2, ![1600000, 128]⟩
abbrev Unit0 : Shape := ⟨0, ![]⟩

variable (gd : GatherDims Nodes EdgeCol Msgs) (sd : ScatterDims Nodes EdgeCol Msgs)
  (hz : Unit0.BroadcastsInDim Nodes (![] : Fin 0 → Fin 2)) (he : Edges.BroadcastsInDim EdgeCol (![0] : Fin 1 → Fin 2))
  (hs : Unit0.BroadcastsInDim Edges (![] : Fin 0 → Fin 1))

/-- The edge aggregation: a negative source index is wrapped by the node count, the source rows are gathered, and
    the gathered rows are added into a zero array at the destination indices. -/
def aggregate (h : FVec Ideal Nodes .f32) (src dst : (⟨Edges, .i32⟩ : BufTy).Contents (Elt Ideal)) : FVec Ideal Nodes .f32 :=
  Host.scatterAdd sd (broadcastInDim Nodes ![] hz (constant (F := Ideal) Unit0 .f32 0x00000000#32))
    (broadcastInDim EdgeCol ![0] he dst)
    (Host.gather gd h (broadcastInDim EdgeCol ![0] he
      (select (cmpi .slt src (broadcastInDim Edges ![] hs (constantI Unit0 32 0#32)))
        (addi src (broadcastInDim Edges ![] hs (constantI Unit0 32 100000#32))) src)))

/-- The network: aggregate, rectified update with (W0, b0); aggregate, rectified update with (W1, b1); aggregate,
    affine update with (W2, b2). The bias vectors enter as rows. -/
def network (c128 : (⟨1, ![128]⟩ : Shape).ShapeCasts ⟨2, ![1, 128]⟩) (c64 : (⟨1, ![64]⟩ : Shape).ShapeCasts ⟨2, ![1, 64]⟩)
    (x : FVec Ideal Nodes .f32) (s : FVec Ideal ⟨2, ![100000, 1]⟩ .f32)
    (W0 : FVec Ideal ⟨2, ![128, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (src dst : (⟨Edges, .i32⟩ : BufTy).Contents (Elt Ideal)) : FVec Ideal ⟨2, ![100000, 64]⟩ .f32 :=
  NodeUpdate.affine
    (aggregate gd sd hz he hs
      (NodeUpdate.rectified
        (aggregate gd sd hz he hs
          (NodeUpdate.rectified (aggregate gd sd hz he hs x src dst) s W0 (shapeCast ⟨2, ![1, 128]⟩ b0 c128))
          src dst)
        s W1 (shapeCast ⟨2, ![1, 128]⟩ b1 c128))
      src dst)
    s W2 (shapeCast ⟨2, ![1, 64]⟩ b2 c64)

end GraphLayers

end
-- ==== Proof.KernelValue.lean ====
/-
  The idealized kernel's result as a function of its arguments.

  The contents at each boundary of the program are followed forward. Before region 0 the host has aggregated the
  input features over the edges and cast the first bias vector to a row; region 0 leaves the rectified node update of
  those in its output array and touches nothing else. The next stretch aggregates that array, region 1 updates it
  again, the last stretch aggregates once more and region 2 applies the affine update. No host operation and no
  region writes an argument's buffer, so at every boundary each argument still holds its launch contents. Chained,
  the result buffer ends holding the three-layer network of the launch arguments.
-/
import proofs.«168601_j18141941859039_1_alg».proof.Proof.Gen.KernelIdeal.Frame
import proofs.«168601_j18141941859039_1_alg».proof.Proof.KernelRun
import proofs.«168601_j18141941859039_1_alg».proof.Proof.Layer0
import proofs.«168601_j18141941859039_1_alg».proof.Proof.Layer1
import proofs.«168601_j18141941859039_1_alg».proof.Proof.Layer2
import proofs.«168601_j18141941859039_1_alg».proof.Proof.GraphLayers
import Idealize.ShloMosaic.Lib.StableHlo.Run

set_option maxRecDepth 16384

noncomputable section

namespace Cert.KernelIdeal.Staged

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The edge aggregation with this program's gather and scatter records. -/
abbrev agg (h : FVec Ideal S100000x128 .f32) (src dst : (⟨S1600000, .i32⟩ : BufTy).Contents (Elt Ideal)) :
    FVec Ideal S100000x128 .f32 :=
  GraphLayers.aggregate gather_S100000x128_S1600000x1_S1600000x128_1_0_n_n_0_1_1128
    scatter_S100000x128_S1600000x1_S1600000x128_1_0_0_1
    Gen.bcast_S_S100000x128 Gen.bcast_S1600000_S1600000x1_0 Gen.bcast_S_S1600000 h src dst

/-- Equal operands, equal aggregations. -/
theorem agg_congr {h h' : FVec Ideal S100000x128 .f32} {s s' d d' : (⟨S1600000, .i32⟩ : BufTy).Contents (Elt Ideal)}
    (e1 : h = h') (e2 : s = s') (e3 : d = d') : agg h s d = agg h' s' d' := by subst e1 e2 e3; rfl

/-- Equal operands, equal updates. -/
theorem rectified_congr {R K D : ℕ} {a a' : FVec Ideal ⟨2, ![R, K]⟩ .f32} {s s' : FVec Ideal ⟨2, ![R, 1]⟩ .f32}
    {w w' : FVec Ideal ⟨2, ![K, D]⟩ .f32} {b b' : FVec Ideal ⟨2, ![1, D]⟩ .f32}
    (e1 : a = a') (e2 : s = s') (e3 : w = w') (e4 : b = b') :
    NodeUpdate.rectified a s w b = NodeUpdate.rectified a' s' w' b' := by subst e1 e2 e3 e4; rfl

theorem affine_congr {R K D : ℕ} {a a' : FVec Ideal ⟨2, ![R, K]⟩ .f32} {s s' : FVec Ideal ⟨2, ![R, 1]⟩ .f32}
    {w w' : FVec Ideal ⟨2, ![K, D]⟩ .f32} {b b' : FVec Ideal ⟨2, ![1, D]⟩ .f32}
    (e1 : a = a') (e2 : s = s') (e3 : w = w') (e4 : b = b') :
    NodeUpdate.affine a s w b = NodeUpdate.affine a' s' w' b' := by subst e1 e2 e3 e4; rfl

/-! ## The three host stretches, from any contents

Each stretch aggregates one array over the edges, casts one bias vector to a row, and writes no argument. -/

section Stretches

variable (W : Valuation τ sig (Elt Ideal))

theorem s0_v9 : StableHlo.after hostOps0 W (Proc.devRef .tc main_v9) = agg (W (Proc.devRef .tc main_arg0)) (W (Proc.devRef .tc main_arg8)) (W (Proc.devRef .tc main_arg9)) := by
  after_results
  rfl

theorem s0_v10 : StableHlo.after hostOps0 W (Proc.devRef .tc main_v10)
    = shapeCast S1x128 (W (Proc.devRef .tc main_arg3)) Gen.shapeCasts_S128_S1x128 := by
  after_results
  rfl

theorem s0_arg1 : StableHlo.after hostOps0 W (Proc.devRef .tc main_arg1) = W (Proc.devRef .tc main_arg1) := by
  after_results

theorem s0_arg2 : StableHlo.after hostOps0 W (Proc.devRef .tc main_arg2) = W (Proc.devRef .tc main_arg2) := by
  after_results

theorem s0_arg4 : StableHlo.after hostOps0 W (Proc.devRef .tc main_arg4) = W (Proc.devRef .tc main_arg4) := by
  after_results

theorem s0_arg5 : StableHlo.after hostOps0 W (Proc.devRef .tc main_arg5) = W (Proc.devRef .tc main_arg5) := by
  after_results

theorem s0_arg6 : StableHlo.after hostOps0 W (Proc.devRef .tc main_arg6) = W (Proc.devRef .tc main_arg6) := by
  after_results

theorem s0_arg7 : StableHlo.after hostOps0 W (Proc.devRef .tc main_arg7) = W (Proc.devRef .tc main_arg7) := by
  after_results

theorem s0_arg8 : StableHlo.after hostOps0 W (Proc.devRef .tc main_arg8) = W (Proc.devRef .tc main_arg8) := by
  after_results

theorem s0_arg9 : StableHlo.after hostOps0 W (Proc.devRef .tc main_arg9) = W (Proc.devRef .tc main_arg9) := by
  after_results

theorem s1_v21 : StableHlo.after hostOps1 W (Proc.devRef .tc main_v21)
    = agg (W (Proc.devRef .tc main_v11)) (W (Proc.devRef .tc main_arg8)) (W (Proc.devRef .tc main_arg9)) := by
  after_results
  rfl

theorem s1_v22 : StableHlo.after hostOps1 W (Proc.devRef .tc main_v22)
    = shapeCast S1x128 (W (Proc.devRef .tc main_arg5)) Gen.shapeCasts_S128_S1x128 := by
  after_results
  rfl

theorem s1_arg1 : StableHlo.after hostOps1 W (Proc.devRef .tc main_arg1) = W (Proc.devRef .tc main_arg1) := by
  after_results

theorem s1_arg4 : StableHlo.after hostOps1 W (Proc.devRef .tc main_arg4) = W (Proc.devRef .tc main_arg4) := by
  after_results

theorem s1_arg6 : StableHlo.after hostOps1 W (Proc.devRef .tc main_arg6) = W (Proc.devRef .tc main_arg6) := by
  after_results

theorem s1_arg7 : StableHlo.after hostOps1 W (Proc.devRef .tc main_arg7) = W (Proc.devRef .tc main_arg7) := by
  after_results

theorem s1_arg8 : StableHlo.after hostOps1 W (Proc.devRef .tc main_arg8) = W (Proc.devRef .tc main_arg8) := by
  after_results

theorem s1_arg9 : StableHlo.after hostOps1 W (Proc.devRef .tc main_arg9) = W (Proc.devRef .tc main_arg9) := by
  after_results

theorem s2_v33 : StableHlo.after hostOps2 W (Proc.devRef .tc main_v33)
    = agg (W (Proc.devRef .tc main_v23)) (W (Proc.devRef .tc main_arg8)) (W (Proc.devRef .tc main_arg9)) := by
  after_results
  rfl

theorem s2_v34 : StableHlo.after hostOps2 W (Proc.devRef .tc main_v34)
    = shapeCast S1x64 (W (Proc.devRef .tc main_arg7)) Gen.shapeCasts_S64_S1x64 := by
  after_results
  rfl

theorem s2_arg1 : StableHlo.after hostOps2 W (Proc.devRef .tc main_arg1) = W (Proc.devRef .tc main_arg1) := by
  after_results

theorem s2_arg6 : StableHlo.after hostOps2 W (Proc.devRef .tc main_arg6) = W (Proc.devRef .tc main_arg6) := by
  after_results

end Stretches

/-! ## Before region 0 -/

theorem W1_v9 (c : Dev nD) : W1 m ρ c (Proc.devRef .tc main_v9) = agg (m ((c : Thread nD τ).loc main_arg0)) (m ((c : Thread nD τ).loc main_arg8)) (m ((c : Thread nD τ).loc main_arg9)) := s0_v9 (W0 m ρ c)

theorem W1_v10 (c : Dev nD) : W1 m ρ c (Proc.devRef .tc main_v10)
    = shapeCast S1x128 (m ((c : Thread nD τ).loc main_arg3)) Gen.shapeCasts_S128_S1x128 := s0_v10 (W0 m ρ c)

theorem W1_arg1 (c : Dev nD) : W1 m ρ c (Proc.devRef .tc main_arg1) = m ((c : Thread nD τ).loc main_arg1) := s0_arg1 (W0 m ρ c)

theorem W1_arg2 (c : Dev nD) : W1 m ρ c (Proc.devRef .tc main_arg2) = m ((c : Thread nD τ).loc main_arg2) := s0_arg2 (W0 m ρ c)

theorem W1_arg4 (c : Dev nD) : W1 m ρ c (Proc.devRef .tc main_arg4) = m ((c : Thread nD τ).loc main_arg4) := s0_arg4 (W0 m ρ c)

theorem W1_arg5 (c : Dev nD) : W1 m ρ c (Proc.devRef .tc main_arg5) = m ((c : Thread nD τ).loc main_arg5) := s0_arg5 (W0 m ρ c)

theorem W1_arg6 (c : Dev nD) : W1 m ρ c (Proc.devRef .tc main_arg6) = m ((c : Thread nD τ).loc main_arg6) := s0_arg6 (W0 m ρ c)

theorem W1_arg7 (c : Dev nD) : W1 m ρ c (Proc.devRef .tc main_arg7) = m ((c : Thread nD τ).loc main_arg7) := s0_arg7 (W0 m ρ c)

theorem W1_arg8 (c : Dev nD) : W1 m ρ c (Proc.devRef .tc main_arg8) = m ((c : Thread nD τ).loc main_arg8) := s0_arg8 (W0 m ρ c)

theorem W1_arg9 (c : Dev nD) : W1 m ρ c (Proc.devRef .tc main_arg9) = m ((c : Thread nD τ).loc main_arg9) := s0_arg9 (W0 m ρ c)

/-! ## After region 0 -/

theorem W2_v11 (c : Dev nD) : W2 m ρ c (Proc.devRef .tc main_v11) = NodeUpdate.rectified (agg (m ((c : Thread nD τ).loc main_arg0)) (m ((c : Thread nD τ).loc main_arg8)) (m ((c : Thread nD τ).loc main_arg9))) (m ((c : Thread nD τ).loc main_arg1)) (m ((c : Thread nD τ).loc main_arg2)) (shapeCast S1x128 (m ((c : Thread nD τ).loc main_arg3)) Gen.shapeCasts_S128_S1x128) :=
  ((W2_arr m ρ c 4).trans (Layer0.final (V1 m ρ) c)).trans
    (rectified_congr (W1_v9 m ρ c) (W1_arg1 m ρ c) (W1_arg2 m ρ c) (W1_v10 m ρ c))

theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

/-! ## Before region 1 -/

theorem W3_v21 (c : Dev nD) : W3 m ρ c (Proc.devRef .tc main_v21) = agg (NodeUpdate.rectified (agg (m ((c : Thread nD τ).loc main_arg0)) (m ((c : Thread nD τ).loc main_arg8)) (m ((c : Thread nD τ).loc main_arg9))) (m ((c : Thread nD τ).loc main_arg1)) (m ((c : Thread nD τ).loc main_arg2)) (shapeCast S1x128 (m ((c : Thread nD τ).loc main_arg3)) Gen.shapeCasts_S128_S1x128)) (m ((c : Thread nD τ).loc main_arg8)) (m ((c : Thread nD τ).loc main_arg9)) :=
  (s1_v21 (W2 m ρ c)).trans (agg_congr (W2_v11 m ρ c) (W2_arg8 m ρ c) (W2_arg9 m ρ c))

theorem W3_v22 (c : Dev nD) : W3 m ρ c (Proc.devRef .tc main_v22)
    = shapeCast S1x128 (m ((c : Thread nD τ).loc main_arg5)) Gen.shapeCasts_S128_S1x128 :=
  (s1_v22 (W2 m ρ c)).trans (congrArg (fun v => shapeCast S1x128 v Gen.shapeCasts_S128_S1x128) (W2_arg5 m ρ c))

theorem W3_arg1 (c : Dev nD) : W3 m ρ c (Proc.devRef .tc main_arg1) = m ((c : Thread nD τ).loc main_arg1) :=
  (s1_arg1 (W2 m ρ c)).trans (W2_arg1 m ρ c)

theorem W3_arg4 (c : Dev nD) : W3 m ρ c (Proc.devRef .tc main_arg4) = m ((c : Thread nD τ).loc main_arg4) :=
  (s1_arg4 (W2 m ρ c)).trans (W2_arg4 m ρ c)

theorem W3_arg6 (c : Dev nD) : W3 m ρ c (Proc.devRef .tc main_arg6) = m ((c : Thread nD τ).loc main_arg6) :=
  (s1_arg6 (W2 m ρ c)).trans (W2_arg6 m ρ c)

theorem W3_arg7 (c : Dev nD) : W3 m ρ c (Proc.devRef .tc main_arg7) = m ((c : Thread nD τ).loc main_arg7) :=
  (s1_arg7 (W2 m ρ c)).trans (W2_arg7 m ρ c)

theorem W3_arg8 (c : Dev nD) : W3 m ρ c (Proc.devRef .tc main_arg8) = m ((c : Thread nD τ).loc main_arg8) :=
  (s1_arg8 (W2 m ρ c)).trans (W2_arg8 m ρ c)

theorem W3_arg9 (c : Dev nD) : W3 m ρ c (Proc.devRef .tc main_arg9) = m ((c : Thread nD τ).loc main_arg9) :=
  (s1_arg9 (W2 m ρ c)).trans (W2_arg9 m ρ c)

/-! ## After region 1 -/

theorem W4_v23 (c : Dev nD) : W4 m ρ c (Proc.devRef .tc main_v23) = NodeUpdate.rectified (agg (NodeUpdate.rectified (agg (m ((c : Thread nD τ).loc main_arg0)) (m ((c : Thread nD τ).loc main_arg8)) (m ((c : Thread nD τ).loc main_arg9))) (m ((c : Thread nD τ).loc main_arg1)) (m ((c : Thread nD τ).loc main_arg2)) (shapeCast S1x128 (m ((c : Thread nD τ).loc main_arg3)) Gen.shapeCasts_S128_S1x128)) (m ((c : Thread nD τ).loc main_arg8)) (m ((c : Thread nD τ).loc main_arg9))) (m ((c : Thread nD τ).loc main_arg1)) (m ((c : Thread nD τ).loc main_arg4)) (shapeCast S1x128 (m ((c : Thread nD τ).loc main_arg5)) Gen.shapeCasts_S128_S1x128) :=
  ((W4_arr m ρ c 4).trans (Layer1.final (V3 m ρ) c)).trans
    (rectified_congr (W3_v21 m ρ c) (W3_arg1 m ρ c) (W3_arg4 m ρ c) (W3_v22 m ρ c))

theorem W4_arg1 (c : Dev nD) : W4 m ρ c (Proc.devRef .tc main_arg1) = m ((c : Thread nD τ).loc main_arg1) :=
  ((W4_arr m ρ c 1).trans (((dat1 (V3 m ρ) c).arrAt_in 1 rfl _).trans (A_eq1 (V3 m ρ) c 1))).trans (W3_arg1 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

/-! ## Before region 2 -/

theorem W5_v33 (c : Dev nD) : W5 m ρ c (Proc.devRef .tc main_v33) = agg (NodeUpdate.rectified (agg (NodeUpdate.rectified (agg (m ((c : Thread nD τ).loc main_arg0)) (m ((c : Thread nD τ).loc main_arg8)) (m ((c : Thread nD τ).loc main_arg9))) (m ((c : Thread nD τ).loc main_arg1)) (m ((c : Thread nD τ).loc main_arg2)) (shapeCast S1x128 (m ((c : Thread nD τ).loc main_arg3)) Gen.shapeCasts_S128_S1x128)) (m ((c : Thread nD τ).loc main_arg8)) (m ((c : Thread nD τ).loc main_arg9))) (m ((c : Thread nD τ).loc main_arg1)) (m ((c : Thread nD τ).loc main_arg4)) (shapeCast S1x128 (m ((c : Thread nD τ).loc main_arg5)) Gen.shapeCasts_S128_S1x128)) (m ((c : Thread nD τ).loc main_arg8)) (m ((c : Thread nD τ).loc main_arg9)) :=
  (s2_v33 (W4 m ρ c)).trans (agg_congr (W4_v23 m ρ c) (W4_arg8 m ρ c) (W4_arg9 m ρ c))

theorem W5_v34 (c : Dev nD) : W5 m ρ c (Proc.devRef .tc main_v34)
    = shapeCast S1x64 (m ((c : Thread nD τ).loc main_arg7)) Gen.shapeCasts_S64_S1x64 :=
  (s2_v34 (W4 m ρ c)).trans (congrArg (fun v => shapeCast S1x64 v Gen.shapeCasts_S64_S1x64) (W4_arg7 m ρ c))

theorem W5_arg1 (c : Dev nD) : W5 m ρ c (Proc.devRef .tc main_arg1) = m ((c : Thread nD τ).loc main_arg1) :=
  (s2_arg1 (W4 m ρ c)).trans (W4_arg1 m ρ c)

theorem W5_arg6 (c : Dev nD) : W5 m ρ c (Proc.devRef .tc main_arg6) = m ((c : Thread nD τ).loc main_arg6) :=
  (s2_arg6 (W4 m ρ c)).trans (W4_arg6 m ρ c)

/-! ## After region 2: the result -/

/-- The result buffer's final contents: the three-layer network of the launch arguments. -/
theorem W6_v35 (c : Dev nD) : W6 m ρ c (Proc.devRef .tc main_v35)
    = GraphLayers.network gather_S100000x128_S1600000x1_S1600000x128_1_0_n_n_0_1_1128
        scatter_S100000x128_S1600000x1_S1600000x128_1_0_0_1
        Gen.bcast_S_S100000x128 Gen.bcast_S1600000_S1600000x1_0 Gen.bcast_S_S1600000
        Gen.shapeCasts_S128_S1x128 Gen.shapeCasts_S64_S1x64
        (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) :=
  ((W6_arr m ρ c 4).trans (Layer2.final (V5 m ρ) c)).trans
    (affine_congr (W5_v33 m ρ c) (W5_arg1 m ρ c) (W5_arg6 m ρ c) (W5_v34 m ρ c))

/-- Every weakly fair execution of the idealized kernel terminates with the result at the network of the launch
    arguments and the arguments unchanged. -/
theorem run_network : θ_run defs (onTc (τ := τ) (main (F := Ideal))) ⟨m, fun _ => 0, ρ⟩ (fun r => ∀ c : Dev nD,
      r.2.mem ((c.tc : Thread nD τ).loc main_v35)
        = GraphLayers.network gather_S100000x128_S1600000x1_S1600000x128_1_0_n_n_0_1_1128
            scatter_S100000x128_S1600000x1_S1600000x128_1_0_0_1
            Gen.bcast_S_S100000x128 Gen.bcast_S1600000_S1600000x1_0 Gen.bcast_S_S1600000
            Gen.shapeCasts_S128_S1x128 Gen.shapeCasts_S64_S1x64
            (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W6_v35 m ρ c), (h c).2⟩) (run (F := Ideal) m ρ)

end Cert.KernelIdeal.Staged

end
-- ==== Proof.RefLayers.lean ====
/-
  The reference's layers, folded.

  The reference spells a dense node update on whole arrays: the aggregated features times the scale column spread
  along the rows, a dot_general with the weights, plus the bias vector spread to every row, and for the first two
  layers a maximum with the zero splat. Each spelling is the node update of the same operands with the bias cast to
  a row; with the three layers folded, the reference's result is the three-layer network of its arguments.
-/
import proofs.«168601_j18141941859039_1_alg».proof.Proof.Gen.ReferenceIdeal
import proofs.«168601_j18141941859039_1_alg».proof.Proof.NodeUpdate
import proofs.«168601_j18141941859039_1_alg».proof.Proof.GraphLayers

noncomputable section

namespace Cert.ReferenceIdeal.Folded

open Cert.ReferenceIdeal Cert.ReferenceIdeal.Gen
open Idealize.ShloMosaic Idealize.ShloMosaic.TcCoe Idealize.SL.Sem

theorem row128 : S128.ShapeCasts S1x128 := by decide
theorem row64 : S64.ShapeCasts S1x64 := by decide

/-- A rectified layer as the host spells it is the rectified node update. -/
theorem layer_rectified (a : FVec Ideal S100000x128 .f32) (s : FVec Ideal S100000x1 .f32) (W : FVec Ideal S128x128 .f32)
    (b : FVec Ideal S128 .f32) :
    maximumf (addf (Host.dotGeneral dot_S100000x128_S128x128_S100000x128_1_0_0_1_n_n none
          (mulf a (broadcastInDim S100000x128 ![0, 1] bcast_S100000x1_S100000x128_0_1 s)) W)
        (broadcastInDim S100000x128 ![0, 1] bcast_S1x128_S100000x128_0_1 (broadcastInDim S1x128 ![1] bcast_S128_S1x128_1 b)))
      (broadcastInDim S100000x128 ![] bcast_S_S100000x128 (constant S_ .f32 0x00000000#32))
    = NodeUpdate.rectified a s W (shapeCast S1x128 b row128) := by
  funext j
  exact congrArg (fun f : FVec Ideal S100000x128 .f32 => max (f j) (Ideal.ofBits .f32 0x00000000#32))
    (NodeUpdate.host_affine dot_S100000x128_S128x128_S100000x128_1_0_0_1_n_n rfl rfl (fun _ _ => rfl) (fun _ _ => rfl)
      (fun _ _ => rfl) (fun _ _ => rfl) a s W b _ _ _ row128)

/-- The last layer as the host spells it is the affine node update. -/
theorem layer_affine (a : FVec Ideal S100000x128 .f32) (s : FVec Ideal S100000x1 .f32) (W : FVec Ideal S128x64 .f32)
    (b : FVec Ideal S64 .f32) :
    addf (Host.dotGeneral dot_S100000x128_S128x64_S100000x64_1_0_0_1_n_n none
        (mulf a (broadcastInDim S100000x128 ![0, 1] bcast_S100000x1_S100000x128_0_1 s)) W)
      (broadcastInDim S100000x64 ![0, 1] bcast_S1x64_S100000x64_0_1 (broadcastInDim S1x64 ![1] bcast_S64_S1x64_1 b))
    = NodeUpdate.affine a s W (shapeCast S1x64 b row64) :=
  NodeUpdate.host_affine dot_S100000x128_S128x64_S100000x64_1_0_0_1_n_n rfl rfl (fun _ _ => rfl) (fun _ _ => rfl)
    (fun _ _ => rfl) (fun _ _ => rfl) a s W b _ _ _ row64

end Cert.ReferenceIdeal.Folded

end
-- ==== Proof.lean ====
/-
  A three-layer graph convolution ("copy the source row, sum at the destination", then a dense node update) computed
  by a kernel program and by a plain reference, equal at exact arithmetic.

  Per layer both programs aggregate with the same host operations: gather the rows of h at the source indices,
  scatter-add them into zeros at the destination indices. The dense update out = (agg · s) W + b, with a maximum with
  zero after the first two layers, is where they differ in spelling. The kernel program runs it as a TensorCore region
  over 20 blocks of 5000 rows: each point scales its rows by its entries of the column s, narrows to bf16 (the identity
  on the extended reals), multiplies by the weights into a zero accumulator and adds the bias row. The reference does
  the same on whole arrays with a dot_general. Row r of the update reads only row r of agg and entry r of s, so the
  blocks the region writes are the restrictions of one whole-array function, and the row ranges cover the array.
  Both sides take the same products and the same sums in the same association — no factor crosses a sum —, so the
  equality holds for every extended-real input and the finiteness precondition is never opened.

  The modules: NodeUpdate (the dense update as one index-by-index function; the kernel body's and the host's spellings
  equal to it), GraphLayers (the aggregation kept closed, and the three layers composed), Layer0 / Layer1 / Layer2
  (each region's output array is the update of the arrays it was entered with), KernelRun (the kernel program's run
  with its result named), KernelValue (the contents at each boundary followed from the launch memory to the result),
  RefLayers (the reference's layers folded). The kernel program's word-level frame and its idealized frame are the
  generated ones; the reference's frame is its generated run with the result dropped; nothing was rewritten by the
  ideal pass, so the preservation claim is trivial.
-/
import proofs.«168601_j18141941859039_1_alg».proof.Defs
import proofs.«168601_j18141941859039_1_alg».proof.Proof.Gen.Kernel
import proofs.«168601_j18141941859039_1_alg».proof.Proof.Gen.Kernel.Skeleton
import proofs.«168601_j18141941859039_1_alg».proof.Proof.Gen.Kernel.Launch
import proofs.«168601_j18141941859039_1_alg».proof.Proof.Gen.Kernel.Points
import proofs.«168601_j18141941859039_1_alg».proof.Proof.Gen.Kernel.Frame
import proofs.«168601_j18141941859039_1_alg».proof.Proof.Gen.KernelIdeal
import proofs.«168601_j18141941859039_1_alg».proof.Proof.Gen.KernelIdeal.Skeleton
import proofs.«168601_j18141941859039_1_alg».proof.Proof.Gen.KernelIdeal.Launch
import proofs.«168601_j18141941859039_1_alg».proof.Proof.Gen.KernelIdeal.Points
import proofs.«168601_j18141941859039_1_alg».proof.Proof.Gen.KernelIdeal.Frame
import proofs.«168601_j18141941859039_1_alg».proof.Proof.Gen.ReferenceIdeal
import proofs.«168601_j18141941859039_1_alg».proof.Proof.Gen.Pre_finite_inputs
import proofs.«168601_j18141941859039_1_alg».proof.Proof.Gen.ReferenceIdeal.Run
import proofs.«168601_j18141941859039_1_alg».proof.Proof.KernelValue
import proofs.«168601_j18141941859039_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' gather and scatter records carry the same dimension numbers. -/
theorem gather_same : Cert.ReferenceIdeal.gather_S100000x128_S1600000x1_S1600000x128_1_0_n_n_0_1_1128
    = Cert.KernelIdeal.gather_S100000x128_S1600000x1_S1600000x128_1_0_n_n_0_1_1128 := rfl
theorem scatter_same : Cert.ReferenceIdeal.scatter_S100000x128_S1600000x1_S1600000x128_1_0_0_1
    = Cert.KernelIdeal.scatter_S100000x128_S1600000x1_S1600000x128_1_0_0_1 := rfl

/-- Both idealized programs end at the three-layer network of the (agreeing) arguments. -/
theorem algebraic : Cert.algebraic_KernelIdeal_ReferenceIdeal := by
  intro m ρ m' ρ' _ hagree
  refine ⟨_, Cert.KernelIdeal.Staged.run_network m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Folded.layer_affine, Cert.ReferenceIdeal.Folded.layer_rectified,
    Cert.ReferenceIdeal.Folded.layer_rectified, h0, h1, h2, h3, h4, h5, h6, h7, h8, h9, gather_same, scatter_same]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
